-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x768 : Shape := ⟨3, ![16, 256, 768]⟩
abbrev S2048x768 : Shape := ⟨2, ![2048, 768]⟩
abbrev S_ : Shape := ⟨0, ![]⟩

class Facts : Prop where
  bcast_S_S16x256x768 : S_.BroadcastsInDim S16x256x768 (![] : Fin 0 → Fin S16x256x768.rank)
  reducesTo_S16x256x768_S_d0_1_2 : S16x256x768.ReducesTo [0, 1, 2] S_
  h_S_ : 0 < S_.numel
  bcast_S_S2048x768 : S_.BroadcastsInDim S2048x768 (![] : Fin 0 → Fin S2048x768.rank)
  reducesTo_S2048x768_S_d0_1 : S2048x768.ReducesTo [0, 1] S_

variable [Facts]

def fn {F : FTy → Type} [FloatOps F] (main_arg0 : FVec F S16x256x768 .f32) (main_arg1 : FVec F S2048x768 .f32) : IVec S_ 1 :=
  let main_v0 : FVec F S16x256x768 .f32 := Host.absf main_arg0
  let main_cst : FVec F S_ .f32 := constant S_ .f32 0x7F800000#32
  let main_v1 : FVec F S16x256x768 .f32 := broadcastInDim S16x256x768 ![] bcast_S_S16x256x768 main_cst
  let main_v2 : IVec S16x256x768 1 := cmpf .olt main_v0 main_v1
  let main_c : IVec S_ 1 := constantI S_ 1 1#1
  let main_v3 : IVec S_ 1 := (fun x v => Host.reduce IntOp.andi x v reducesTo_S16x256x768_S_d0_1_2 h_S_) main_v2 main_c
  let main_v4 : FVec F S2048x768 .f32 := Host.absf main_arg1
  let main_cst_0 : FVec F S_ .f32 := constant S_ .f32 0x7F800000#32
  let main_v5 : FVec F S2048x768 .f32 := broadcastInDim S2048x768 ![] bcast_S_S2048x768 main_cst_0
  let main_v6 : IVec S2048x768 1 := cmpf .olt main_v4 main_v5
  let main_c_1 : IVec S_ 1 := constantI S_ 1 1#1
  let main_v7 : IVec S_ 1 := (fun x v => Host.reduce IntOp.andi x v reducesTo_S2048x768_S_d0_1 h_S_) main_v6 main_c_1
  let main_v8 : IVec S_ 1 := andi main_v3 main_v7
  main_v8
-- ==== Kernel.lean ====
abbrev S16x256x768 : Shape := ⟨3, ![16, 256, 768]⟩
abbrev S2048x768 : Shape := ⟨2, ![2048, 768]⟩
abbrev S4096x768 : Shape := ⟨2, ![4096, 768]⟩
abbrev S_ : Shape := ⟨0, ![]⟩
abbrev S2048 : Shape := ⟨1, ![2048]⟩
abbrev S1x2048 : Shape := ⟨2, ![1, 2048]⟩
abbrev S4096x2048 : Shape := ⟨2, ![4096, 2048]⟩
abbrev S512x768 : Shape := ⟨2, ![512, 768]⟩
abbrev S512x2048 : Shape := ⟨2, ![512, 2048]⟩
abbrev S512 : Shape := ⟨1, ![512]⟩
abbrev S512x1 : Shape := ⟨2, ![512, 1]⟩
abbrev S16x256x2048 : Shape := ⟨3, ![16, 256, 2048]⟩

abbrev nBuf : Space → Nat
  | .hbm => 10
  | .vmem => 6
  | .smem => 0
  | _ => 0

abbrev bufTy : (tb : Table) → Fin (tcTables nBuf tb) → BufTy
  | .hbm, ⟨0, _⟩ => ⟨S16x256x768, .f32⟩
  | .hbm, ⟨1, _⟩ => ⟨S2048x768, .f32⟩
  | .hbm, ⟨2, _⟩ => ⟨S4096x768, .f32⟩
  | .hbm, ⟨3, _⟩ => ⟨S2048x768, .bf16⟩
  | .hbm, ⟨4, _⟩ => ⟨S2048x768, .f32⟩
  | .hbm, ⟨5, _⟩ => ⟨S_, .f32⟩
  | .hbm, ⟨6, _⟩ => ⟨S2048, .f32⟩
  | .hbm, ⟨7, _⟩ => ⟨S1x2048, .f32⟩
  | .hbm, ⟨8, _⟩ => ⟨S4096x2048, .f32⟩
  | .hbm, ⟨9, _⟩ => ⟨S16x256x2048, .f32⟩
  | .local _ .vmem, ⟨0, _⟩ => ⟨S512x768, .f32⟩
  | .local _ .vmem, ⟨1, _⟩ => ⟨S512x768, .f32⟩
  | .local _ .vmem, ⟨2, _⟩ => ⟨S2048x768, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S16x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x256x768_S4096x768 : S16x256x768.ShapeCasts S4096x768
  bitsLt_bf16_f32 : FTy.bits .bf16 < FTy.bits .f32
  reducesTo_S2048x768_S2048_d1 : S2048x768.ReducesTo [1] S2048
  h_S_ : 0 < S_.numel
  shapeCasts_S2048_S1x2048 : S2048.ShapeCasts S1x2048
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  reduces_S512x768_S512 : S512x768.Reduces [1] S512
  shapeCasts_S512_S512x1 : S512.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  shapeCasts_S4096x2048_S16x256x2048 : S4096x2048.ShapeCasts S16x256x2048
  dot_S512x768_S2048x768_S512x2048_1_1_0_0_n_n_wf : DotDims.WF S512x768 S2048x768 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .f32 = 32 ∨ (Rect.block (s := S4096x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S2048x768.size a
  hwx0_1 : ∀ i : grid0.Coords, EltTy.bits .bf16 = 32 ∨ (Rect.block (s := S2048x768) S2048x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .f32 = 32 ∨ (Rect.block (s := S4096x2048) S512x2048.size (cc0_transform_3 i) (hinb0_3 i)).WholeWords (EltTy.packing .f32)

variable [Facts₀]

def dot_S512x768_S2048x768_S512x2048_1_1_0_0_n_n : DotDims S512x768 S2048x768 S512x2048 where
  lhsContracting := [1]
  rhsContracting := [1]
  lhsNonContracting := [0]
  rhsNonContracting := [0]
  lhsBatch := []
  rhsBatch := []
  wf := dot_S512x768_S2048x768_S512x2048_1_1_0_0_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x256x768 : Shape := ⟨3, ![16, 256, 768]⟩
abbrev S2048x768 : Shape := ⟨2, ![2048, 768]⟩
abbrev S_ : Shape := ⟨0, ![]⟩
abbrev S16x256 : Shape := ⟨2, ![16, 256]⟩
abbrev S16x256x1 : Shape := ⟨3, ![16, 256, 1]⟩
abbrev S2048 : Shape := ⟨1, ![2048]⟩
abbrev S16x256x2048 : Shape := ⟨3, ![16, 256, 2048]⟩
abbrev S1x1x2048 : Shape := ⟨3, ![1, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16x256x768, .f32⟩
  | .hbm, ⟨1, _⟩ => ⟨S2048x768, .f32⟩
  | .hbm, ⟨2, _⟩ => ⟨S16x256x768, .f32⟩
  | .hbm, ⟨3, _⟩ => ⟨S_, .f32⟩
  | .hbm, ⟨4, _⟩ => ⟨S16x256, .f32⟩
  | .hbm, ⟨5, _⟩ => ⟨S16x256x1, .f32⟩
  | .hbm, ⟨6, _⟩ => ⟨S2048x768, .f32⟩
  | .hbm, ⟨7, _⟩ => ⟨S_, .f32⟩
  | .hbm, ⟨8, _⟩ => ⟨S2048, .f32⟩
  | .hbm, ⟨9, _⟩ => ⟨S16x256x2048, .f32⟩
  | .hbm, ⟨10, _⟩ => ⟨S1x1x2048, .f32⟩
  | .hbm, ⟨11, _⟩ => ⟨S16x256x2048, .f32⟩
  | .hbm, ⟨12, _⟩ => ⟨S16x256x2048, .f32⟩
  | .hbm, ⟨13, _⟩ => ⟨S16x256x2048, .f32⟩
  | .hbm, ⟨14, _⟩ => ⟨S_, .f32⟩
  | .hbm, ⟨15, _⟩ => ⟨S16x256x2048, .f32⟩
  | .hbm, ⟨16, _⟩ => ⟨S16x256x2048, .f32⟩
  | .hbm, ⟨17, _⟩ => ⟨S16x256x2048, .f32⟩
  | _, _ => ⟨S16x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16x256x768_S16x256_d2 : S16x256x768.ReducesTo [2] S16x256
  h_S_ : 0 < S_.numel
  bcast_S16x256_S16x256x1_0_1 : S16x256.BroadcastsInDim S16x256x1 (![0, 1] : Fin 2 → Fin S16x256x1.rank)
  reducesTo_S2048x768_S2048_d1 : S2048x768.ReducesTo [1] S2048
  bcast_S2048_S1x1x2048_2 : S2048.BroadcastsInDim S1x1x2048 (![2] : Fin 1 → Fin S1x1x2048.rank)
  bcast_S16x256x1_S16x256x2048_0_1_2 : S16x256x1.BroadcastsInDim S16x256x2048 (![0, 1, 2] : Fin 3 → Fin S16x256x2048.rank)
  bcast_S1x1x2048_S16x256x2048_0_1_2 : S1x1x2048.BroadcastsInDim S16x256x2048 (![0, 1, 2] : Fin 3 → Fin S16x256x2048.rank)
  bcast_S_S16x256x2048 : S_.BroadcastsInDim S16x256x2048 (![] : Fin 0 → Fin S16x256x2048.rank)
  dot_S16x256x768_S2048x768_S16x256x2048_2_1_01_0_n_n_wf : DotDims.WF S16x256x768 S2048x768 S16x256x2048 [2] [1] [0, 1] [0] [] []

variable [Facts₀]

def dot_S16x256x768_S2048x768_S16x256x2048_2_1_01_0_n_n : DotDims S16x256x768 S2048x768 S16x256x2048 where
  lhsContracting := [2]
  rhsContracting := [1]
  lhsNonContracting := [0, 1]
  rhsNonContracting := [0]
  lhsBatch := []
  rhsBatch := []
  wf := dot_S16x256x768_S2048x768_S16x256x2048_2_1_01_0_n_n_wf

class Facts : Prop extends Facts₀ where

variable [Facts]
-- ==== Proof.DistSpec.lean ====
/-
  The table of squared distances between rows and prototypes, as ONE function of the two argument arrays.

  For `x : [16, 256, 768]` and `p : [2048, 768]` the entry at `(b, n, k)` is
      |x(b,n,·)|² + |p(k,·)|² − 2 · ⟨x(b,n,·), p(k,·)⟩,
  each of the three terms a sum over the 768 feature coordinates, read on the extended reals with the grouping
  `(|x|² + |p|²) − 2 · ⟨x, p⟩`. Only commutativity and associativity of the sums are ever used to meet this form, so
  nothing here asks the entries to be finite. The factor `2` stays the binary word `0x40000000`: whoever computes the
  table carries the same word, so it is never evaluated.
-/
import Idealize.ShloMosaic.PureOps.Ideal.Laws
import Idealize.ShloMosaic.Lib.ValueIdx

noncomputable section

namespace Cert.SqDist

open Idealize.ShloMosaic Idealize.ShloMosaic.ValueIdx

/-- The squared norm of row `(b, n)` of `x`: the sum of its 768 squared coordinates. -/
def rowSq (x : (⟨3, ![16, 256, 768]⟩ : Shape).Idx → EReal) (b : Fin 16) (n : Fin 256) : EReal :=
  ∑ v : Fin 768, x (ix3 b n v) * x (ix3 b n v)

/-- The squared norm of prototype `k`. -/
def protoSq (p : (⟨2, ![2048, 768]⟩ : Shape).Idx → EReal) (k : Fin 2048) : EReal :=
  ∑ v : Fin 768, p (ix2 k v) * p (ix2 k v)

/-- The inner product of row `(b, n)` of `x` with prototype `k`. -/
def rowDot (x : (⟨3, ![16, 256, 768]⟩ : Shape).Idx → EReal) (p : (⟨2, ![2048, 768]⟩ : Shape).Idx → EReal)
    (b : Fin 16) (n : Fin 256) (k : Fin 2048) : EReal :=
  ∑ v : Fin 768, x (ix3 b n v) * p (ix2 k v)

/-- The squared distance from row `(b, n)` to prototype `k`, by the expansion of the square. -/
def distAt (x : (⟨3, ![16, 256, 768]⟩ : Shape).Idx → EReal) (p : (⟨2, ![2048, 768]⟩ : Shape).Idx → EReal)
    (b : Fin 16) (n : Fin 256) (k : Fin 2048) : EReal :=
  (rowSq x b n + protoSq p k) - Ideal.ofBits .f32 0x40000000#32 * rowDot x p b n k

/-- The whole table, index by index. -/
def table (x : (⟨3, ![16, 256, 768]⟩ : Shape).Idx → EReal) (p : (⟨2, ![2048, 768]⟩ : Shape).Idx → EReal) :
    (⟨3, ![16, 256, 2048]⟩ : Shape).Idx → EReal :=
  fun i => distAt x p (i 0) (i 1) (i 2)

/-- The table at an index given by its coordinates. -/
theorem table_ix3 (x : (⟨3, ![16, 256, 768]⟩ : Shape).Idx → EReal) (p : (⟨2, ![2048, 768]⟩ : Shape).Idx → EReal)
    (b : Fin 16) (n : Fin 256) (k : Fin 2048) : table x p (ix3 b n k) = distAt x p b n k := rfl

/-! ## The same table with the 16 × 256 rows laid end to end

Row `r` of the 4096 flattened rows is row `(r / 256, r % 256)` of the input. -/

/-- The batch coordinate of flattened row `r`. -/
def rowB (r : Fin 4096) : Fin 16 := ⟨r.val / 256, Nat.div_lt_of_lt_mul r.isLt⟩
/-- The position of flattened row `r` inside its batch. -/
def rowN (r : Fin 4096) : Fin 256 := ⟨r.val % 256, Nat.mod_lt _ (by decide)⟩

/-- The squared distance from flattened row `r` to prototype `k`. -/
def flatAt (x : (⟨3, ![16, 256, 768]⟩ : Shape).Idx → EReal) (p : (⟨2, ![2048, 768]⟩ : Shape).Idx → EReal)
    (r : Fin 4096) (k : Fin 2048) : EReal :=
  distAt x p (rowB r) (rowN r) k

/-- The table as a 4096 × 2048 matrix. -/
def flat (x : (⟨3, ![16, 256, 768]⟩ : Shape).Idx → EReal) (p : (⟨2, ![2048, 768]⟩ : Shape).Idx → EReal) :
    (⟨2, ![4096, 2048]⟩ : Shape).Idx → EReal :=
  fun i => flatAt x p (i 0) (i 1)

theorem flat_ix2 (x : (⟨3, ![16, 256, 768]⟩ : Shape).Idx → EReal) (p : (⟨2, ![2048, 768]⟩ : Shape).Idx → EReal)
    (r : Fin 4096) (k : Fin 2048) : flat x p (ix2 r k) = flatAt x p r k := rfl

/-- Row `(b, n)` is flattened row `256 b + n`. -/
theorem distAt_eq_flatAt (x : (⟨3, ![16, 256, 768]⟩ : Shape).Idx → EReal) (p : (⟨2, ![2048, 768]⟩ : Shape).Idx → EReal)
    (b : Fin 16) (n : Fin 256) (k : Fin 2048) (r : Fin 4096) (hr : r.val = b.val * 256 + n.val) :
    distAt x p b n k = flatAt x p r k := by
  have hb : rowB r = b := Fin.ext (by show r.val / 256 = b.val; have := n.isLt; omega)
  have hn : rowN r = n := Fin.ext (by show r.val % 256 = n.val; have := n.isLt; omega)
  unfold flatAt
  rw [hb, hn]

end Cert.SqDist

end
-- ==== Proof.RefTable.lean ====
/-
  The reference computes the table of squared distances.

  Its last stage is `(broadcast |x|² + broadcast |p|²) − 2 · (x ·ᵀ p)`. Read at an index `(b, n, k)`: the two
  broadcasts pick the row's and the prototype's squared norm, each a host sum that starts from the zero word and runs
  over the 768 feature coordinates; the contraction is the sum of the products over the same coordinates. That is the
  table's entry, term for term, once the zero the host sums start from is dropped.
-/
import proofs.«127240_j56968446214767_2_alg».proof.Proof.Gen.ReferenceIdeal.Read
import proofs.«127240_j56968446214767_2_alg».proof.Proof.DistSpec

noncomputable section

namespace Cert.ReferenceIdeal.RefValue

open Cert.ReferenceIdeal Cert.ReferenceIdeal.Read Idealize.ShloMosaic Idealize.ShloMosaic.ValueIdx Cert.SqDist

/-- The reference's result stage is the table of its two arguments. -/
theorem result_eq (x0 : (⟨S16x256x768, .f32⟩ : BufTy).Contents (Elt Ideal)) (x1 : (⟨S2048x768, .f32⟩ : BufTy).Contents (Elt Ideal)) :
    val_main_v12 (F := Ideal) x0 x1 = table x0 x1 := by
  funext i
  obtain ⟨b, n, k, rfl⟩ : ∃ (b : Fin 16) (n : Fin 256) (k : Fin 2048), i = ix3 b n k := ⟨i 0, i 1, i 2, eq_ix3 i⟩
  -- the rows the three sums run over, named by coordinates
  have erow : ∀ v : Fin 768, idx_main_v1 (idx_main_v2 (idx_main_v7 (ix3 b n k))) v = ix3 b n v := fun v =>
    funext fun a => Fin.ext (by match a with | ⟨0, _⟩ => rfl | ⟨1, _⟩ => rfl | ⟨2, _⟩ => rfl)
  have eproto : ∀ v : Fin 768, idx_main_v4 (idx_main_v6 (idx_main_v8 (ix3 b n k))) v = ix2 k v := fun v =>
    funext fun a => Fin.ext (by match a with | ⟨0, _⟩ => rfl | ⟨1, _⟩ => rfl)
  have elhs : ∀ v : Fin 768, lidx_main_v5 (ix3 b n k) v = ix3 b n v := fun v =>
    funext fun a => Fin.ext (by match a with | ⟨0, _⟩ => rfl | ⟨1, _⟩ => rfl | ⟨2, _⟩ => rfl)
  have erhs : ∀ v : Fin 768, ridx_main_v5 (ix3 b n k) v = ix2 k v := fun v =>
    funext fun a => Fin.ext (by match a with | ⟨0, _⟩ => rfl | ⟨1, _⟩ => rfl)
  rw [val_main_v12_apply, val_main_v9_apply, val_main_v11_apply, val_main_v7_apply, val_main_v2_apply,
    val_main_v1_apply, val_main_v8_apply, val_main_v6_apply, val_main_v4_apply, val_main_v10_apply,
    val_main_v5_apply]
  simp only [val_main_v0_apply, val_main_v3_apply, val_main_cst_apply, val_main_cst_0_apply, val_main_cst_1_apply,
    Ideal.mulf_def, Ideal.addf_def, Ideal.subf_def, Ideal.ofBits_def, Ideal.ofBits_zero_f32, zero_add,
    erow, eproto, elhs, erhs]
  rfl

end Cert.ReferenceIdeal.RefValue

end
-- ==== Proof.BodyValue.lean ====
/-
  What one grid step of the kernel computes, entry by entry.

  The body loads a tile `x` of 512 rows (768 features each), the whole prototype matrix `p` and the row `s` of the
  prototypes' squared norms, and stores, at row `r` and column `k` of its 512 × 2048 output tile,
      (Σ_v x(r,v)² + s(0,k)) − 2 · Σ_v x(r,v) · p(k,v).
  The row's squared norm is a lane sum, spread over the columns as a column; `s` is spread over the rows; the product is
  a matrix product into a zero accumulator, contracting the feature axis of both operands, so its entry is the plain
  sum of the products over the 768 features. Rounding the tile to the narrower float format before the product is the
  identity on extended reals.
-/
import proofs.«127240_j56968446214767_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The layout steps, read at an index given by coordinates -/

/-- A vector of `a` entries viewed as a column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` columns reads, at `(i, j)`, the column at `i`. -/
theorem broadcastTo_a1_ab_apply {α : Type} {a b : ℕ} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-! ## The two reductions -/

/-- The lane sum of a 512 × 768 tile at row `r`: the sum of the row's 768 entries. -/
theorem laneSum_apply (y : FVec Ideal S512x768 .f32) (h : S512x768.Reduces [1] S512) (hφ : FKind.Formats .f32)
    (hacc : (0x00000000#32 : BitVec 32) = FKind.add.neutral .f32 hφ) (r : Fin 512) :
    multiReduction .add [1] S512 y 0x00000000#32 h hφ hacc (ix1 r) = ∑ v : Fin 768, y (ix2 r v) := by
  refine (Ideal.multiReduction_add_single y 0x00000000#32 h hφ hacc (ix1 r)).trans ?_
  refine Finset.sum_congr rfl fun v _ => ?_
  exact congrArg y (funext fun a => Fin.ext (by match a with | ⟨0, _⟩ => rfl | ⟨1, _⟩ => rfl))

/-- The tile's matrix product with the prototypes, into a zero accumulator, at `(r, k)`: the products of row `r` of
    the tile with row `k` of the prototypes, summed over the 768 features. -/
theorem matmul_zero_apply (l : FVec Ideal S512x768 .bf16) (q : FVec Ideal S2048x768 .bf16) (r : Fin 512) (k : Fin 2048) :
    matmul dot_S512x768_S2048x768_S512x2048_1_1_0_0_n_n none l q (constant S512x2048 .f32 0x00000000#32) (ix2 r k)
      = ∑ v : Fin 768, l (ix2 r v) * q (ix2 k v) := by
  simp only [matmul]
  rw [Ideal.matmul_constant_zero_apply, ← Equiv.sum_comp (contrEquiv1 dot_S512x768_S2048x768_S512x2048_1_1_0_0_n_n 768 rfl rfl).symm]
  refine Finset.sum_congr rfl fun v _ => ?_
  have hv := contrEquiv1_symm_val dot_S512x768_S2048x768_S512x2048_1_1_0_0_n_n 768 rfl rfl v
  have l0 : ∀ (i : S512x2048.Idx) (c : dot_S512x768_S2048x768_S512x2048_1_1_0_0_n_n.contr.Idx),
      (dot_S512x768_S2048x768_S512x2048_1_1_0_0_n_n.lhsIdx i c 0).val = (i 0).val := fun i c => by
    unfold DotDims.lhsIdx
    rw [dif_neg (show ¬(0 : Fin S512x768.rank) ∈ dot_S512x768_S2048x768_S512x2048_1_1_0_0_n_n.lhsBatch by decide), dif_pos (show (0 : Fin S512x768.rank) ∈ dot_S512x768_S2048x768_S512x2048_1_1_0_0_n_n.lhsNonContracting by decide)]
    rfl
  have r0 : ∀ (i : S512x2048.Idx) (c : dot_S512x768_S2048x768_S512x2048_1_1_0_0_n_n.contr.Idx),
      (dot_S512x768_S2048x768_S512x2048_1_1_0_0_n_n.rhsIdx i c 0).val = (i 1).val := fun i c => by
    unfold DotDims.rhsIdx
    rw [dif_neg (show ¬(0 : Fin S2048x768.rank) ∈ dot_S512x768_S2048x768_S512x2048_1_1_0_0_n_n.rhsBatch by decide), dif_pos (show (0 : Fin S2048x768.rank) ∈ dot_S512x768_S2048x768_S512x2048_1_1_0_0_n_n.rhsNonContracting by decide)]
    rfl
  have el : dot_S512x768_S2048x768_S512x2048_1_1_0_0_n_n.lhsIdx (ix2 r k) ((contrEquiv1 dot_S512x768_S2048x768_S512x2048_1_1_0_0_n_n 768 rfl rfl).symm v) = ix2 r v := funext fun a => Fin.ext (by
    match a with
    | ⟨0, _⟩ => exact l0 _ _
    | ⟨1, _⟩ => exact (dot_S512x768_S2048x768_S512x2048_1_1_0_0_n_n.lhsIdx_val_of_single rfl _ _).trans hv)
  have er : dot_S512x768_S2048x768_S512x2048_1_1_0_0_n_n.rhsIdx (ix2 r k) ((contrEquiv1 dot_S512x768_S2048x768_S512x2048_1_1_0_0_n_n 768 rfl rfl).symm v) = ix2 k v := funext fun a => Fin.ext (by
    match a with
    | ⟨0, _⟩ => exact r0 _ _
    | ⟨1, _⟩ => exact (dot_S512x768_S2048x768_S512x2048_1_1_0_0_n_n.rhsIdx_val_of_single rfl _ _).trans hv)
  rw [el, er]

/-! ## The stored value -/

/-- The body's stored value at row `r`, column `k` of the output tile. -/
theorem pay_apply (x : FVec Ideal S512x768 .f32) (p : FVec Ideal S2048x768 .bf16) (s : FVec Ideal S1x2048 .f32)
    (r : Fin 512) (k : Fin 2048) :
    k0_pay1 (F := Ideal) x p s (ix2 r k)
      = ((∑ v : Fin 768, x (ix2 r v) * x (ix2 r v)) + s (ix2 (0 : Fin 1) k))
        - Ideal.ofBits .f32 0x40000000#32 * ∑ v : Fin 768, x (ix2 r v) * p (ix2 k v) := by
  unfold k0_pay1
  dsimp only
  simp only [shapeCast_self]
  rw [subf_apply, addf_apply, mulf_apply, broadcast_apply]
  refine congrArg₂ (· - ·) (congrArg₂ (· + ·) ?_ ?_) (congrArg (Ideal.ofBits .f32 0x40000000#32 * ·) ?_)
  · exact (broadcastTo_a1_ab_apply _ _ r k).trans ((shapeCast_a_a1_apply _ _ r 0).trans (laneSum_apply _ _ _ _ r))
  · exact broadcastTo_1b_ab_apply _ _ r k
  · exact matmul_zero_apply _ _ r k

end Cert.KernelIdeal.Body

end
-- ==== Proof.RegionEntry.lean ====
/-
  What the kernel's grid steps read.

  Before the grid starts, the rows of the input are laid end to end (16 × 256 rows become 4096), the prototypes change
  float format (the identity on extended reals), and the prototypes' squared norms are summed once, each a host sum
  that starts from the zero word, and laid out as one row of 2048 entries. Step `t` of the 8 steps then reads rows
  `512 t … 512 t + 511` of the flattened input, and the whole of the other two arrays.
-/
import proofs.«127240_j56968446214767_2_alg».proof.Proof.Gen.KernelIdeal.Frame
import proofs.«127240_j56968446214767_2_alg».proof.Proof.DistSpec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.SqDist

variable (m : (ℓ : Loc nD τ sig) → Buf (Elt Ideal) ℓ) (c : Dev nD)

/-! ## The three arrays as the grid finds them -/

/-- The flattened input: the argument's rows laid end to end. -/
theorem V_rows : (V m c main_v0 : S4096x768.Idx → EReal)
    = shapeCast S4096x768 (m ((c : Thread nD τ).loc main_arg0) : S16x256x768.Idx → EReal) shapeCasts_S16x256x768_S4096x768 := by
  show StableHlo.after hostOps0 (fun b => m (c, b)) (Proc.devRef .tc main_v0) = _
  after_results
  rfl

/-- The prototypes in the narrower format: the same extended reals. -/
theorem V_protos : (V m c main_v1 : S2048x768.Idx → EReal) = (m ((c : Thread nD τ).loc main_arg1) : S2048x768.Idx → EReal) := by
  show StableHlo.after hostOps0 (fun b => m (c, b)) (Proc.devRef .tc main_v1) = _
  after_results
  rfl

/-- The row of the prototypes' squared norms: the host sum of the squares along the features, from the zero word. -/
theorem V_protoSq : (V m c main_v4 : S1x2048.Idx → EReal)
    = shapeCast S1x2048 (Host.reduceAdd (F := Ideal) (mulf (m ((c : Thread nD τ).loc main_arg1) : FVec Ideal S2048x768 .f32) (m ((c : Thread nD τ).loc main_arg1)))
        (constant (F := Ideal) S_ .f32 0x00000000#32) reducesTo_S2048x768_S2048_d1 h_S_) shapeCasts_S2048_S1x2048 := by
  show StableHlo.after hostOps0 (fun b => m (c, b)) (Proc.devRef .tc main_v4) = _
  after_results
  rfl

/-! ## Read at an index -/

/-- Flattened row `r`, feature `v`, is the argument at row `(r / 256, r % 256)`. -/
theorem rows_apply (r : Fin 4096) (v : Fin 768) :
    (V m c main_v0 : S4096x768.Idx → EReal) (ix2 r v) = (m ((c : Thread nD τ).loc main_arg0) : S16x256x768.Idx → EReal) (ix3 (rowB r) (rowN r) v) := by
  rw [V_rows]
  exact shapeCast_apply _ _ _ _ (by
    show (S16x256x768.rowMajor (ix3 (rowB r) (rowN r) v)).val = (S4096x768.rowMajor (ix2 r v)).val
    rw [Shape.rowMajor_val_three, Shape.rowMajor_val_two]
    show (r.val / 256 * 256 + r.val % 256) * 768 + v.val = r.val * 768 + v.val
    omega)

/-- A host sum of squares along the features, from the zero word, at prototype `k`. -/
theorem hostSq_apply (P : FVec Ideal S2048x768 .f32) (k : Fin 2048) :
    Host.reduceAdd (F := Ideal) (mulf P P) (constant (F := Ideal) S_ .f32 0x00000000#32) reducesTo_S2048x768_S2048_d1 h_S_ (ix1 k)
      = protoSq P k := by
  simp only [Host.reduceAdd, Ideal.hostReduceAdd_def]
  rw [Ideal.hostReduceAdd_single reducesTo_S2048x768_S2048_d1 (by decide)]
  refine (congrArg (· + _) (show _ = (0 : EReal) from Ideal.ofBits_zero_f32)).trans ((zero_add _).trans ?_)
  unfold protoSq
  refine Finset.sum_congr rfl fun v _ => ?_
  exact congrArg (fun i => P i * P i) (funext fun a => Fin.ext (by match a with | ⟨0, _⟩ => rfl | ⟨1, _⟩ => rfl))

/-- Entry `k` of the row of squared norms. -/
theorem protoSq_apply (k : Fin 2048) :
    (V m c main_v4 : S1x2048.Idx → EReal) (ix2 (0 : Fin 1) k) = protoSq (m ((c : Thread nD τ).loc main_arg1)) k := by
  rw [V_protoSq]
  exact (shapeCast_a_1a_apply _ _ (0 : Fin 1) k).trans (hostSq_apply _ k)

/-! ## Each window's block at a grid step -/

/-- Where each window's block sits at step `t`: the input tile and the output tile at block `t` of the rows, the two
    resident arrays at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input tile at step `t`: its row `j` is flattened row `512 t + j`. -/
theorem tile_apply (t : Fin cfg0.N) (j : Fin 512) (v : Fin 768) (r : Fin 4096) (hr : r.val = t.val * 512 + j.val) :
    (iblk m c 0 t : FVec Ideal S512x768 .f32) (ix2 j v)
      = (m ((c : Thread nD τ).loc main_arg0) : S16x256x768.Idx → EReal) (ix3 (rowB r) (rowN r) v) := by
  obtain ⟨e0, e1, -⟩ := idx_facts t
  unfold iblk
  rw [View.read_apply]
  show V m c main_v0 (((cfg0.win 0).blk t).view.emb (ix2 j v)) = _
  have he : ((cfg0.win 0).blk t).view.emb (ix2 j v) = ix2 r v := by
    funext a; apply Fin.ext
    match a with
    | ⟨0, _⟩ => show win0_0.index t (0 : Fin 2) * 512 + 1 * j.val = r.val; omega
    | ⟨1, _⟩ => show win0_0.index t (1 : Fin 2) * 768 + 1 * v.val = v.val; omega
  exact (congrArg (V m c main_v0 : S4096x768.Idx → EReal) he).trans (rows_apply m c r v)

/-- The prototypes' block at any step is the whole array. -/
theorem protos_apply (t : Fin cfg0.N) (k : Fin 2048) (v : Fin 768) :
    (iblk m c 1 t : FVec Ideal S2048x768 .bf16) (ix2 k v) = (m ((c : Thread nD τ).loc main_arg1) : S2048x768.Idx → EReal) (ix2 k v) := by
  obtain ⟨-, -, e0, e1, -⟩ := idx_facts t
  unfold iblk
  rw [View.read_apply]
  show V m c main_v1 (((cfg0.win 1).blk t).view.emb (ix2 k v)) = _
  have he : ((cfg0.win 1).blk t).view.emb (ix2 k v) = ix2 k v := by
    funext a; apply Fin.ext
    match a with
    | ⟨0, _⟩ => show win0_1.index t (0 : Fin 2) * 2048 + 1 * k.val = k.val; omega
    | ⟨1, _⟩ => show win0_1.index t (1 : Fin 2) * 768 + 1 * v.val = v.val; omega
  exact (congrArg (V m c main_v1 : S2048x768.Idx → EReal) he).trans (congrFun (V_protos m c) _)

/-- The squared norms' block at any step is the whole row. -/
theorem sqrow_apply (t : Fin cfg0.N) (k : Fin 2048) :
    (iblk m c 2 t : FVec Ideal S1x2048 .f32) (ix2 (0 : Fin 1) k) = protoSq (m ((c : Thread nD τ).loc main_arg1)) k := by
  obtain ⟨-, -, -, -, e0, e1, -⟩ := idx_facts t
  unfold iblk
  rw [View.read_apply]
  show V m c main_v4 (((cfg0.win 2).blk t).view.emb (ix2 (0 : Fin 1) k)) = _
  have he : ((cfg0.win 2).blk t).view.emb (ix2 (0 : Fin 1) k) = ix2 (0 : Fin 1) k := by
    funext a; apply Fin.ext
    match a with
    | ⟨0, _⟩ => show win0_2.index t (0 : Fin 2) * 1 + 1 * 0 = 0; omega
    | ⟨1, _⟩ => show win0_2.index t (1 : Fin 2) * 2048 + 1 * k.val = k.val; omega
  exact (congrArg (V m c main_v4 : S1x2048.Idx → EReal) he).trans (protoSq_apply m c k)

end Cert.KernelIdeal.Entry

end
-- ==== Proof.Tiles.lean ====
/-
  From the grid steps' tiles to the whole output array.

  Step `t` of the 8 steps writes back the tile of rows `512 t … 512 t + 511`, all 2048 columns. Entry `(j, k)` of that tile
  is what the body stores there: the squared norm of the step's row `j` plus the squared norm of prototype `k`, minus
  twice their inner product. Row `j` of the step is flattened row `512 t + j`, so the tile is exactly rows
  `512 t … 512 t + 511` of the 4096 × 2048 table of squared distances. Every row `r` lies in the tile of step `r / 512`, so
  the tiles cover the array and the array ends holding the table.
-/
import proofs.«127240_j56968446214767_2_alg».proof.Proof.Gen.KernelIdeal.Frame
import proofs.«127240_j56968446214767_2_alg».proof.Proof.DistSpec
import proofs.«127240_j56968446214767_2_alg».proof.Proof.BodyValue
import proofs.«127240_j56968446214767_2_alg».proof.Proof.RegionEntry
import Idealize.ShloMosaic.Lib.Pipeline.Value
import Idealize.ShloMosaic.Lib.ValueIdx

noncomputable section

namespace Cert.KernelIdeal.Tiles

open Cert.KernelIdeal Cert.KernelIdeal.Gen Idealize.ShloMosaic Idealize.ShloMosaic.TcCoe Idealize.SL.Sem
open Idealize.ShloMosaic.Pipeline (Dat)
open Idealize.ShloMosaic.ValueIdx Cert.SqDist

variable (m : (ℓ : Loc nD τ sig) → Buf (Elt Ideal) ℓ) (c : Dev nD)

theorem hz : (![0, 0] : Fin 2 → Nat) = fun _ => 0 := funext fun a => by fin_cases a <;> rfl

/-- The 4096 × 2048 table of the two arguments as launched. -/
abbrev flatTable : S4096x2048.Idx → EReal :=
  flat (m ((c : Thread nD τ).loc main_arg0)) (m ((c : Thread nD τ).loc main_arg1))

/-- What step `t` writes back is block `t` of the table. -/
theorem flushed_eq (t : Fin cfg0.N) :
    (dats m 0 c).flushed 3 t = ((cfg0.win 3).blk t).view.read (Elt Ideal) (flatTable m c) := by
  show (cfg0.win 3).cut (grid0.coords t) ((dats m 0 c).after 3 t) = _
  rw [after0_3]
  unfold out0_3
  rw [View.canon_unit_zero hz]
  simp only [View.ld_unit_zero (S := S512x768) hz, View.ld_unit_zero (S := S2048x768) hz, View.ld_unit_zero (S := S1x2048) hz]
  obtain ⟨-, -, -, -, -, -, e0, e1⟩ := Entry.idx_facts t
  have ht : t.val < 8 := lt_of_lt_of_eq t.isLt N_0
  funext y
  obtain ⟨j, k, rfl⟩ : ∃ (j : Fin 512) (k : Fin 2048), y = ix2 j k := ⟨y 0, y 1, eq_ix2 y⟩
  show k0_pay1 (iblk m c 0 t) (iblk m c 1 t) (iblk m c 2 t) (ix2 j k) = flatTable m c (((cfg0.win 3).blk t).view.emb (ix2 j k))
  have hr : t.val * 512 + j.val < 4096 := by have := j.isLt; omega
  have he : ((cfg0.win 3).blk t).view.emb (ix2 j k) = ix2 (⟨t.val * 512 + j.val, hr⟩ : Fin 4096) k := by
    funext a; apply Fin.ext
    match a with
    | ⟨0, _⟩ => show win0_3.index t (0 : Fin 2) * 512 + 1 * j.val = t.val * 512 + j.val; omega
    | ⟨1, _⟩ => show win0_3.index t (1 : Fin 2) * 2048 + 1 * k.val = k.val; omega
  have hrow : ∀ v : Fin 768, (iblk m c 0 t : FVec Ideal S512x768 .f32) (ix2 j v)
      = (m ((c : Thread nD τ).loc main_arg0) : S16x256x768.Idx → EReal) (ix3 (rowB ⟨t.val * 512 + j.val, hr⟩) (rowN ⟨t.val * 512 + j.val, hr⟩) v) :=
    fun v => Entry.tile_apply m c t j v ⟨t.val * 512 + j.val, hr⟩ rfl
  rw [he]
  refine (Body.pay_apply (iblk m c 0 t) (iblk m c 1 t) (iblk m c 2 t) j k).trans ?_
  show _ = flatAt _ _ ⟨t.val * 512 + j.val, hr⟩ k
  unfold flatAt distAt rowSq rowDot
  refine congrArg₂ (· - ·) (congrArg₂ (· + ·) ?_ ?_) (congrArg (Ideal.ofBits .f32 0x40000000#32 * ·) ?_)
  · exact Finset.sum_congr rfl fun v _ => by rw [hrow v]
  · exact Entry.sqrow_apply m c t k
  · exact Finset.sum_congr rfl fun v _ => by rw [hrow v, Entry.protos_apply m c t k v]

/-- An index of the output array is in step `t`'s tile iff each coordinate is in the tile's range on its axis. -/
theorem mem_blk (t : Fin cfg0.N) (i : S4096x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v5).slice (win0_3.rect t)).set ↔ _
  rw [View.set_slice_whole, Rect.mem_set_unit]
  exact Iff.rfl

/-- Every index is in the tile of the step that holds its row: step `r / 512` for row `r`. -/
theorem cover (i : S4096x2048.Idx) : ∃ t : Fin cfg0.N, (cfg0.win 3).flush t = true ∧ i ∈ ((cfg0.win 3).blk t).view.set := by
  have hi0 : (i 0).val < 4096 := (i 0).isLt
  have hi1 : (i 1).val < 2048 := (i 1).isLt
  obtain ⟨t, ht⟩ : ∃ t : Fin cfg0.N, t.val = (i 0).val / 512 :=
    ⟨⟨(i 0).val / 512, lt_of_lt_of_eq (show (i 0).val / 512 < 8 by omega) N_0.symm⟩, rfl⟩
  obtain ⟨-, -, -, -, -, -, e0, e1⟩ := Entry.idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- The output array after the grid: the table. -/
theorem final : (dats m 0 c).arrAt 3 cfg0.N = flatTable m c :=
  (dats m 0 c).arrAt_eq_of_cover 3 (flatTable m c) (fun t _ => flushed_eq m c t) (cover)

end Cert.KernelIdeal.Tiles

end
-- ==== Proof.KernelRun.lean ====
/-
  The kernel's whole run, read.

  After the grid the 4096 × 2048 output array holds the table of squared distances with the input's rows laid end to
  end. One more host step views those 4096 rows as 16 batches of 256: entry `(b, n, k)` of the result is entry
  `(256 b + n, k)` of the array, which is the squared distance from row `(b, n)` to prototype `k`. Neither argument is
  written.
-/
import proofs.«127240_j56968446214767_2_alg».proof.Proof.Gen.KernelIdeal.Frame
import proofs.«127240_j56968446214767_2_alg».proof.Proof.DistSpec
import proofs.«127240_j56968446214767_2_alg».proof.Proof.Tiles
import Idealize.ShloMosaic.Lib.StableHlo.Run
import Idealize.ShloMosaic.Lib.Pipeline.Value
import Idealize.ShloMosaic.Lib.ValueIdx

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx Cert.SqDist

/-- The 4096 × 2048 table viewed as 16 × 256 × 2048 is the table by batch, row and prototype. -/
theorem reshape_flat (x : (⟨3, ![16, 256, 768]⟩ : Shape).Idx → EReal) (p : (⟨2, ![2048, 768]⟩ : Shape).Idx → EReal)
    (h : (⟨2, ![4096, 2048]⟩ : Shape).ShapeCasts ⟨3, ![16, 256, 2048]⟩) :
    shapeCast ⟨3, ![16, 256, 2048]⟩ (flat x p) h = table x p := by
  funext i
  obtain ⟨b, n, k, rfl⟩ : ∃ (b : Fin 16) (n : Fin 256) (k : Fin 2048), i = ix3 b n k := ⟨i 0, i 1, i 2, eq_ix3 i⟩
  have hr : b.val * 256 + n.val < 4096 := by have := b.isLt; have := n.isLt; omega
  refine (shapeCast_apply (flat x p) h (ix3 b n k) (ix2 (⟨b.val * 256 + n.val, hr⟩ : Fin 4096) k) (by
    rw [Shape.rowMajor_val_two, Shape.rowMajor_val_three]
    show (b.val * 256 + n.val) * 2048 + k.val = (b.val * 256 + n.val) * 2048 + k.val
    rfl)).trans ?_
  rw [flat_ix2, table_ix3]
  exact (distAt_eq_flatAt x p b n k _ rfl).symm

variable (m : (ℓ : Loc nD τ sig) → Buf (Elt Ideal) ℓ) (ρ : Dev nD → PrngReg)

/-- After the run the result buffer holds the table of the two arguments as launched. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v6)
      = table (m ((c : Thread nD τ).loc main_arg0)) (m ((c : Thread nD τ).loc main_arg1)) := by
  refine ((h c).2 main_v6 (Pipeline.mem_restRefs_of main_v6 (by decide) (by decide))).trans ?_
  unfold Pipeline.afterTail₀
  show StableHlo.after hostOps1 _ (Proc.devRef .tc main_v6) = _
  after_results
  rw [show Pipeline.withArrays spec0 c (V0 m c) (fun w => (dats m 0 c).arrAt w cfg0.N) (Proc.devRef .tc main_v5) = Tiles.flatTable m c from
    (Pipeline.withArrays_arr spec0 launch0.win.arr_inj c _ _ 3).trans (Tiles.final m c)]
  exact reshape_flat _ _ _

/-- The run: every weakly fair execution terminates with the result at the table and both arguments as launched. -/
theorem run : θ_run defs (onTc (τ := τ) (main (F := Ideal))) ⟨m, fun _ => 0, ρ⟩ fun r => ∀ c : Dev nD,
      r.2.mem ((c : Thread nD τ).loc main_v6) = table (m ((c : Thread nD τ).loc main_arg0)) (m ((c : Thread nD τ).loc main_arg1))
      ∧ r.2.mem ((c : Thread nD τ).loc main_arg1) = m ((c : Thread nD τ).loc main_arg1)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨result_eq m r h c,
       ((h c).2 main_arg1 (Pipeline.mem_restRefs_of main_arg1 (by decide) (by decide))).trans (W_main_arg1 m (dats m) c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KernelValue

end
-- ==== Proof.lean ====
/-
  Squared distances to a set of prototypes: a tiled kernel against the whole-array formula.

  For an input of 16 × 256 rows and 2048 prototypes, 768 features each, both programs return the table
      d(b, n, k) = |x(b,n,·)|² + |p(k,·)|² − 2 · ⟨x(b,n,·), p(k,·)⟩
  together with the prototypes unchanged. The reference forms the three terms over the whole arrays and combines them
  as `(|x|² + |p|²) − 2 · ⟨x, p⟩`. The kernel lays the rows end to end, sums the prototypes' squared norms once, and
  then in 8 steps of 512 rows computes, per tile, the rows' squared norms and the tile's matrix product with the
  prototypes, combines them in the same grouping, and finally views the 4096 rows as 16 × 256 again.

  On extended reals each of the three terms is the same finite sum over the 768 features on both sides (a format
  change is the identity, a matrix product into zero and a host contraction are the plain sum of products, a lane sum
  and a host sum from the zero word are the plain sum), the constant `2` is the same binary word on both sides, and the
  grouping is the same; only the tiling and the layout of the rows differ. So the two results agree entry by entry with
  no appeal to the inputs being finite. The idealized kernel is the kernel's own text (no rewrite was applied), so
  there is nothing to preserve beyond that.
-/
import proofs.«127240_j56968446214767_2_alg».proof.Defs
import proofs.«127240_j56968446214767_2_alg».proof.Proof.Gen.Kernel
import proofs.«127240_j56968446214767_2_alg».proof.Proof.Gen.Kernel.Frame
import proofs.«127240_j56968446214767_2_alg».proof.Proof.Gen.KernelIdeal
import proofs.«127240_j56968446214767_2_alg».proof.Proof.Gen.KernelIdeal.Frame
import proofs.«127240_j56968446214767_2_alg».proof.Proof.Gen.ReferenceIdeal
import proofs.«127240_j56968446214767_2_alg».proof.Proof.Gen.ReferenceIdeal.Run
import proofs.«127240_j56968446214767_2_alg».proof.Proof.Gen.ReferenceIdeal.Read
import proofs.«127240_j56968446214767_2_alg».proof.Proof.Gen.Pre_finite_inputs
import proofs.«127240_j56968446214767_2_alg».proof.Proof.DistSpec
import proofs.«127240_j56968446214767_2_alg».proof.Proof.RefTable
import proofs.«127240_j56968446214767_2_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its reading on extended reals. -/
theorem frame_ideal : Cert.frame_KernelIdeal := fun m ρ _ => Cert.KernelIdeal.Gen.frame m ρ

/-- The reference runs to the end and leaves its arguments as they were: its run, with the result forgotten. -/
theorem frame_reference : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- No operation of the kernel was rewritten on the way to its reading on extended reals. -/
theorem preserves : Cert.preserves_Kernel_KernelIdeal := trivial

/-- From memories that agree on the two arguments, the kernel ends with the table of squared distances of its
    arguments and the reference with the table of its own: the same table. The second result is the prototypes
    themselves on both sides. -/
theorem algebraic : Cert.algebraic_KernelIdeal_ReferenceIdeal := by
  intro m ρ m' ρ' _ hagree
  refine ⟨fun c => Cert.SqDist.table (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => m ((c.tc : Thread Cert.KernelIdeal.nD Cert.KernelIdeal.τ).loc Cert.KernelIdeal.main_arg1),
    Cert.KernelIdeal.KernelValue.run m ρ, ?_⟩
  refine (θ_run Cert.ReferenceIdeal.defs _ _).mono
    (fun _ h c => ⟨(h c).1.trans ?_, (h c).2.1.trans (hagree c).2, (h c).2.2⟩)
    (Cert.ReferenceIdeal.Value.run (F := Ideal) m' ρ')
  rw [Cert.ReferenceIdeal.Read.val_main_v12_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
